-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64x1x512x512 : Shape := ⟨4, ![64, 1, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S64x1x512x512 : S_.BroadcastsInDim S64x1x512x512 (![] : Fin 0 → Fin S64x1x512x512.rank)
  reducesTo_S64x1x512x512_S_d0_1_2_3 : S64x1x512x512.ReducesTo [0, 1, 2, 3] S_

variable [Facts]

def fn {F : FTy → Type} [FloatOps F] (main_arg0 : FVec F S64x3x512x512 .f32) (main_arg1 : FVec F S64x1x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S64x1x512x512 : Shape := ⟨4, ![64, 1, 512, 512]⟩
abbrev S2x3x512x512 : Shape := ⟨4, ![2, 3, 512, 512]⟩
abbrev S2x1x512x512 : Shape := ⟨4, ![2, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x1x512x512, .f32⟩
  | .hbm, ⟨2, _⟩ => ⟨S64x3x512x512, .f32⟩
  | .local _ .vmem, ⟨0, _⟩ => ⟨S2x3x512x512, .f32⟩
  | .local _ .vmem, ⟨1, _⟩ => ⟨S2x3x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S2x3x512x512, .f32⟩
  | .local _ .vmem, ⟨5, _⟩ => ⟨S2x3x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x1x512x512_S2x1x512x512_0_0_0_0 : ∀ a, (![0, 0, 0, 0] : Fin 4 → Nat) a + S2x1x512x512.size a ≤ S2x1x512x512.size a
  h_S2x1x512x512 : 0 < S2x1x512x512.numel
  inb_S2x3x512x512_S2x3x512x512_0_0_0_0 : ∀ a, (![0, 0, 0, 0] : Fin 4 → Nat) a + S2x3x512x512.size a ≤ S2x3x512x512.size a
  h_S2x3x512x512 : 0 < S2x3x512x512.numel
  broadcasts_S2x1x512x512_S2x3x512x512 : S2x1x512x512.Broadcasts S2x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S64x3x512x512.size a
  hwx0_0 : ∀ i : grid0.Coords, EltTy.bits .f32 = 32 ∨ (Rect.block (s := S64x3x512x512) S2x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S64x1x512x512.size a
  hwx0_1 : ∀ i : grid0.Coords, EltTy.bits .f32 = 32 ∨ (Rect.block (s := S64x1x512x512) S2x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x3x512x512.size a ≤ S64x3x512x512.size a
  hwx0_2 : ∀ i : grid0.Coords, EltTy.bits .f32 = 32 ∨ (Rect.block (s := S64x3x512x512) S2x3x512x512.size (cc0_transform_2 i) (hinb0_2 i)).WholeWords (EltTy.packing .f32)

variable [Facts₀]

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x3x512x512 : Shape := ⟨4, ![64, 3, 512, 512]⟩
abbrev S64x1x512x512 : Shape := ⟨4, ![64, 1, 512, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x1x512x512, .f32⟩
  | .hbm, ⟨2, _⟩ => ⟨S_, .f32⟩
  | .hbm, ⟨3, _⟩ => ⟨S64x1x512x512, .f32⟩
  | .hbm, ⟨4, _⟩ => ⟨S64x1x512x512, .f32⟩
  | .hbm, ⟨5, _⟩ => ⟨S64x3x512x512, .f32⟩
  | .hbm, ⟨6, _⟩ => ⟨S64x3x512x512, .f32⟩
  | .hbm, ⟨7, _⟩ => ⟨S_, .f32⟩
  | .hbm, ⟨8, _⟩ => ⟨S64x1x512x512, .f32⟩
  | .hbm, ⟨9, _⟩ => ⟨S64x1x512x512, .f32⟩
  | .hbm, ⟨10, _⟩ => ⟨S64x3x512x512, .f32⟩
  | .hbm, ⟨11, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  bcast_S64x1x512x512_S64x3x512x512_0_1_2_3 : S64x1x512x512.BroadcastsInDim S64x3x512x512 (![0, 1, 2, 3] : Fin 4 → Fin S64x3x512x512.rank)

variable [Facts₀]

class Facts : Prop extends Facts₀ where

variable [Facts]
-- ==== Proof.Blend.lean ====
/-
  The function both programs compute, stated once over the literal shapes.

  An image batch `x` has shape [64, 3, 512, 512] (sample, channel, row, column); a mask `mk` has shape
  [64, 1, 512, 512]: ONE channel per sample, shared by the three image channels. The blend with mask value 0 is, at
  every image index `i = (b, ch, r, q)`,

      blend x mk i = x i * (1 - mk (b, 0, r, q)) + mk (b, 0, r, q) * 0 .

  The term `mk · 0` is kept as written: on the extended reals it is not `0` at an infinite mask entry, and neither
  program drops it. Nothing below depends on the float instance: the two programs apply the SAME four operations to the
  SAME two literal words in the SAME order, so `blend` is stated, and both sides are read, at every instance at once;
  no law of arithmetic is used anywhere in this certificate, only where each entry is read from.
-/
import Idealize.ShloMosaic.PureOps.Ideal
import Idealize.ShloMosaic.Lib.ValueIdx

noncomputable section

namespace Cert.Blend

open Idealize.ShloMosaic

variable {F : FTy → Type} [FloatOps F]

/-- The image batch's shape. -/
abbrev Img : Shape := ⟨4, ![64, 3, 512, 512]⟩
/-- The mask batch's shape: the channel axis has extent one. -/
abbrev Msk : Shape := ⟨4, ![64, 1, 512, 512]⟩

/-- The mask entry an image entry is blended with: same sample, row and column, the mask's only channel. -/
abbrev under (i : Img.Idx) : Msk.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩

/-- `x · (1 − mk) + mk · 0`, the mask broadcast over the channel axis; `0x3F800000` is the f32 word of 1 and
    `0x00000000` the f32 word of 0, and both are left as words: the two programs carry the same ones. -/
def blend (x : Img.Idx → F .f32) (mk : Msk.Idx → F .f32) : Img.Idx → F .f32 := fun i =>
  FloatOps.addf
    (FloatOps.mulf (x i) (FloatOps.subf (FloatOps.ofBits .f32 0x3F800000#32) (mk (under i))))
    (FloatOps.mulf (mk (under i)) (FloatOps.ofBits .f32 0x00000000#32))

theorem blend_apply (x : Img.Idx → F .f32) (mk : Msk.Idx → F .f32) (i : Img.Idx) :
    blend x mk i = FloatOps.addf
      (FloatOps.mulf (x i) (FloatOps.subf (FloatOps.ofBits .f32 0x3F800000#32) (mk (under i))))
      (FloatOps.mulf (mk (under i)) (FloatOps.ofBits .f32 0x00000000#32)) := rfl

end Cert.Blend

end
-- ==== Proof.KernelBlend.lean ====
/-
  The kernel computes `blend`.

  The pallas_call walks the batch axis two samples at a time: grid point `t` (of 32) takes samples `2t` and `2t + 1`
  of the image (all three channels, all rows and columns), the same two samples of the mask, and writes the same two
  samples of the result. All three index maps send `t` to block `(t, 0, 0, 0)`.

  Inside a block, at block index `y = (b', ch, r, q)`, the body leaves
  `xblk y · (1 − mblk (b', 0, r, q)) + mblk (b', 0, r, q) · 0` — the generated value leg reads the body's one store that
  way (`E2`). The image block's entry `y` is the image's entry `(2t + b', ch, r, q)`, which is also where the result
  block's entry `y` lands; the mask block's entry `(b', 0, r, q)` is the mask's entry `(2t + b', 0, r, q)`, the one
  UNDER that image index. So point `t` writes back block `t` of `blend` of the two arrays.

  Every sample `b` lies in exactly the block `b / 2`, so the 32 blocks cover the result array and it ends as `blend`
  of the image and the mask everywhere. The image the kernel reads is the argument itself: the one host operation
  before the region copies the image into the result's buffer — it reads the image argument and writes neither
  argument — and the input window stages the argument's own buffer, so the region finds both arguments as launched.
-/
import proofs.«167120_j72567767433410_2_alg».proof.Proof.Gen.KernelIdeal.Value
import proofs.«167120_j72567767433410_2_alg».proof.Proof.Blend

set_option maxRecDepth 16384

noncomputable section

namespace Cert.KernelIdeal.KerBlend

open Cert.KernelIdeal Cert.KernelIdeal.Gen Cert.KernelIdeal.Value Idealize.ShloMosaic Idealize.ShloMosaic.TcCoe Idealize.SL.Sem
open Idealize.ShloMosaic.Pipeline (Dat)
open Cert.Blend

variable {F : FTy → Type} [FloatOps F]
variable (m : (ℓ : Loc nD τ sig) → Buf (Elt F) ℓ) (ρ : Dev nD → PrngReg)

/-- The body's loads and its store start at the block's origin. -/
theorem origin : (![0, 0, 0, 0] : Fin 4 → Nat) = fun _ => 0 := funext fun a => by fin_cases a <;> rfl

/-- What the body leaves in the result block, at a block index, from the image block `x0` and the mask block `x1`:
    its loads take the two blocks whole and its one store writes the block whole, so the block is the store's value. -/
theorem out_apply (x0 : Vec F S2x3x512x512 .f32) (x1 : Vec F S2x1x512x512 .f32) (y : S2x3x512x512.Idx) :
    out0_2 x0 x1 y = E2 x0 x1 y := by
  unfold out0_2
  rw [canon2_eq]
  simp only [View.ld_unit_zero (S := S2x3x512x512) origin, View.ld_unit_zero (S := S2x1x512x512) origin]

/-- The three index maps over the 32 grid points: point `t` takes block `(t, 0, 0, 0)` of each array. -/
theorem idx_facts : ∀ t : Fin cfg0.N,
    win0_0.index t = ![t.val, 0, 0, 0] ∧ win0_1.index t = ![t.val, 0, 0, 0] ∧ win0_2.index t = ![t.val, 0, 0, 0] :=
  (by decide +kernel : ∀ t : Fin grid0.N, _)

/-- WHAT POINT `t` WRITES BACK is block `t` of `blend` of the image and the mask as the region finds them. -/
theorem flushed_eq (c : Dev nD) (t : Fin cfg0.N) :
    (dats m 0 c).flushed 2 t
      = ((cfg0.win 2).blk t).view.read (Elt F) (blend (F := F) (V m c main_arg0) (V m c main_arg1)) := by
  rw [flushed2]
  obtain ⟨e0, e1, e2⟩ := idx_facts t
  funext j
  show out0_2 (iblk m c 0 t) (iblk m c 1 t) j
    = blend (F := F) (V m c main_arg0) (V m c main_arg1) (((cfg0.win 2).blk t).view.emb j)
  rw [out_apply (iblk m c 0 t) (iblk m c 1 t) j, blend_apply]
  have hj0 : (j 0).val < 2 := (j 0).isLt
  have hj1 : (j 1).val < 3 := (j 1).isLt
  have hj2 : (j 2).val < 512 := (j 2).isLt
  have hj3 : (j 3).val < 512 := (j 3).isLt
  -- the image block's entry is the image's entry where the result block's entry lands
  have h0 : ((cfg0.win 0).blk t).view.emb (ix2_0 j) = ((cfg0.win 2).blk t).view.emb j := by
    funext a; apply Fin.ext
    match a with
    | ⟨0, _⟩ => show win0_0.index t (0 : Fin 4) * 2 + 1 * (j 0).val = win0_2.index t (0 : Fin 4) * 2 + 1 * (j 0).val; rw [e0, e2]
    | ⟨1, _⟩ => show win0_0.index t (1 : Fin 4) * 3 + 1 * (j 1).val = win0_2.index t (1 : Fin 4) * 3 + 1 * (j 1).val; rw [e0, e2]
    | ⟨2, _⟩ => show win0_0.index t (2 : Fin 4) * 512 + 1 * (j 2).val = win0_2.index t (2 : Fin 4) * 512 + 1 * (j 2).val; rw [e0, e2]
    | ⟨3, _⟩ => show win0_0.index t (3 : Fin 4) * 512 + 1 * (j 3).val = win0_2.index t (3 : Fin 4) * 512 + 1 * (j 3).val; rw [e0, e2]
  -- the mask block's entry at the block's only channel is the mask's entry under that image index
  have h1 : ((cfg0.win 1).blk t).view.emb (ix2_1 j) = under (((cfg0.win 2).blk t).view.emb j) := by
    funext a; apply Fin.ext
    match a with
    | ⟨0, _⟩ => show win0_1.index t (0 : Fin 4) * 2 + 1 * (j 0).val = win0_2.index t (0 : Fin 4) * 2 + 1 * (j 0).val; rw [e1, e2]
    | ⟨1, _⟩ => show win0_1.index t (1 : Fin 4) * 1 + 1 * 0 = 0; rw [e1]; rfl
    | ⟨2, _⟩ => show win0_1.index t (2 : Fin 4) * 512 + 1 * (j 2).val = win0_2.index t (2 : Fin 4) * 512 + 1 * (j 2).val; rw [e1, e2]
    | ⟨3, _⟩ => show win0_1.index t (3 : Fin 4) * 512 + 1 * (j 3).val = win0_2.index t (3 : Fin 4) * 512 + 1 * (j 3).val; rw [e1, e2]
  -- (the body reads the mask block twice, at the same entry both times)
  show FloatOps.addf
      (FloatOps.mulf (V m c main_arg0 (((cfg0.win 0).blk t).view.emb (ix2_0 j)))
        (FloatOps.subf (Scalar.ofBits .f32 0x3F800000#32) (V m c main_arg1 (((cfg0.win 1).blk t).view.emb (ix2_1 j)))))
      (FloatOps.mulf (V m c main_arg1 (((cfg0.win 1).blk t).view.emb (ix2_2 j))) (Scalar.ofBits .f32 0x00000000#32))
    = _
  rw [h0, h1]

/-- An index of the result array is in point `t`'s block iff each coordinate is in the block's range on its axis. -/
theorem mem_blk (t : Fin cfg0.N) (i : S64x3x512x512.Idx) :
    i ∈ ((cfg0.win 2).blk t).view.set
      ↔ ∀ a : Fin 4, win0_2.index t a * S2x3x512x512.size a ≤ (i a).val
          ∧ (i a).val < win0_2.index t a * S2x3x512x512.size a + S2x3x512x512.size a := by
  show i ∈ ((View.whole main_v0).slice (win0_2.rect t)).set ↔ _
  rw [View.set_slice_whole, Rect.mem_set_unit]
  exact Iff.rfl

/-- Every entry of the result array is written: sample `b` lies in the block of point `b / 2`. -/
theorem cover (i : S64x3x512x512.Idx) :
    ∃ t : Fin cfg0.N, (cfg0.win 2).flush t = true ∧ i ∈ ((cfg0.win 2).blk t).view.set := by
  have hi0 : (i 0).val < 64 := (i 0).isLt
  have hi1 : (i 1).val < 3 := (i 1).isLt
  have hi2 : (i 2).val < 512 := (i 2).isLt
  have hi3 : (i 3).val < 512 := (i 3).isLt
  let t : Fin cfg0.N := ⟨(i 0).val / 2, by show (i 0).val / 2 < 32; omega⟩
  obtain ⟨-, -, e2⟩ := idx_facts t
  refine ⟨t, flush0_2 t, ?_⟩
  rw [mem_blk]
  intro a
  match a with
  | ⟨0, _⟩ =>
    show win0_2.index t (0 : Fin 4) * 2 ≤ (i 0).val ∧ (i 0).val < win0_2.index t (0 : Fin 4) * 2 + 2
    rw [e2]; show (i 0).val / 2 * 2 ≤ (i 0).val ∧ (i 0).val < (i 0).val / 2 * 2 + 2; omega
  | ⟨1, _⟩ =>
    show win0_2.index t (1 : Fin 4) * 3 ≤ (i 1).val ∧ (i 1).val < win0_2.index t (1 : Fin 4) * 3 + 3
    rw [e2]; show 0 * 3 ≤ (i 1).val ∧ (i 1).val < 0 * 3 + 3; omega
  | ⟨2, _⟩ =>
    show win0_2.index t (2 : Fin 4) * 512 ≤ (i 2).val ∧ (i 2).val < win0_2.index t (2 : Fin 4) * 512 + 512
    rw [e2]; show 0 * 512 ≤ (i 2).val ∧ (i 2).val < 0 * 512 + 512; omega
  | ⟨3, _⟩ =>
    show win0_2.index t (3 : Fin 4) * 512 ≤ (i 3).val ∧ (i 3).val < win0_2.index t (3 : Fin 4) * 512 + 512
    rw [e2]; show 0 * 512 ≤ (i 3).val ∧ (i 3).val < 0 * 512 + 512; omega

/-- THE RESULT ARRAY after the run is `blend` of the image and the mask as launched. -/
theorem final (c : Dev nD) :
    (dats m 0 c).arrAt 2 cfg0.N
      = blend (F := F) (m ((c : Thread nD τ).loc main_arg0)) (m ((c : Thread nD τ).loc main_arg1)) := by
  rw [← V_main_arg0 m c, ← V_main_arg1 m c]
  exact (dats m 0 c).arrAt_eq_of_cover 2 (blend (F := F) (V m c main_arg0) (V m c main_arg1))
    (fun t _ => flushed_eq m c t) cover

/-- The kernel's run: it terminates with the result array at `blend` of the arguments, the arguments unchanged. -/
theorem run : θ_run defs (onTc (τ := τ) (main (F := F))) ⟨m, fun _ => 0, ρ⟩ fun r => ∀ c : Dev nD,
      r.2.mem ((c : Thread nD τ).loc main_v0)
        = blend (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KerBlend

end
-- ==== Proof.ReferenceBlend.lean ====
/-
  The reference computes `blend`.

  Its ten host operations are: the scalar 1 splat to the mask's shape, minus the mask; that difference repeated along
  the channel axis (extent 1 to extent 3) and multiplied into the image; the scalar 0 splat to the mask's shape,
  multiplied by the mask, repeated along the channel axis the same way; and the sum of the two. Read at an image index
  `i = (b, ch, r, q)`, each repetition along the channel axis reads its operand at `(b, 0, r, q)` — the index
  `under i` of the specification — and each splat reads its scalar; what is left is `blend`'s defining expression,
  operation for operation.
-/
import proofs.«167120_j72567767433410_2_alg».proof.Proof.Gen.ReferenceIdeal.Read
import proofs.«167120_j72567767433410_2_alg».proof.Proof.Blend

noncomputable section

namespace Cert.ReferenceIdeal.RefBlend

open Cert.ReferenceIdeal Cert.ReferenceIdeal.Read Idealize.ShloMosaic Cert.Blend

variable {F : FTy → Type} [FloatOps F]

/-- Both repetitions along the channel axis read the operand under the image index: at the mask's only channel. -/
theorem idx_v2_eq (i : S64x3x512x512.Idx) : idx_main_v2 i = under i :=
  funext fun a => Fin.ext (by match a with | ⟨0, _⟩ => rfl | ⟨1, _⟩ => rfl | ⟨2, _⟩ => rfl | ⟨3, _⟩ => rfl)

theorem idx_v6_eq (i : S64x3x512x512.Idx) : idx_main_v6 i = under i :=
  funext fun a => Fin.ext (by match a with | ⟨0, _⟩ => rfl | ⟨1, _⟩ => rfl | ⟨2, _⟩ => rfl | ⟨3, _⟩ => rfl)

/-- The reference's last stage, as a function of the two argument arrays, is `blend` of them. -/
theorem val_eq_blend (x0 : (⟨S64x3x512x512, .f32⟩ : BufTy).Contents (Elt F)) (x1 : (⟨S64x1x512x512, .f32⟩ : BufTy).Contents (Elt F)) :
    val_main_v7 (F := F) x0 x1 = blend (F := F) x0 x1 := by
  funext i
  rw [val_main_v7_apply, val_main_v3_apply, val_main_v2_apply, val_main_v1_apply, val_main_v0_apply, val_main_cst_apply,
    val_main_v6_apply, val_main_v5_apply, val_main_v4_apply, val_main_cst_0_apply, idx_v2_eq, idx_v6_eq]
  rfl

end Cert.ReferenceIdeal.RefBlend

end
-- ==== Proof.lean ====
/-
  A masked blend against its jnp reference: `out = x · (1 − mask) + mask · 0` over an image batch of shape
  [64, 3, 512, 512] and a one-channel mask of shape [64, 1, 512, 512] shared by the three image channels.

  The kernel walks the batch two samples at a time (32 grid points, every block whole in the other three axes); the
  reference is the same expression on whole arrays. Both apply subtraction from the word of 1, the product with the
  image, the product of the mask with the word of 0, and the sum, in that order, so at every index the two results are
  the same term of the same two entries — Proof/Blend.lean states that term (`blend`), Proof/KernelBlend.lean shows the
  kernel's result array ends as `blend` of its arguments, Proof/ReferenceBlend.lean that the reference's does. No law of
  arithmetic joins the two sides, so the finiteness of the inputs is never used: the equality holds at infinite entries
  too, where `mask · 0` is not `0`.

  The kernel's result buffer starts as a copy of the image (the call aliases them) and every entry of it is then
  overwritten, sample `b` by grid point `b / 2`; the image argument itself is only read.

  The ideal pass rewrote no operation of the kernel, so the kernel's idealization is its own text and there is nothing
  to preserve; each program's termination, absence of faults and untouched arguments are its run with the result
  dropped.
-/
import proofs.«167120_j72567767433410_2_alg».proof.Defs
import proofs.«167120_j72567767433410_2_alg».proof.Proof.Gen.Kernel
import proofs.«167120_j72567767433410_2_alg».proof.Proof.Gen.Kernel.Frame
import proofs.«167120_j72567767433410_2_alg».proof.Proof.Gen.KernelIdeal
import proofs.«167120_j72567767433410_2_alg».proof.Proof.Gen.KernelIdeal.Frame
import proofs.«167120_j72567767433410_2_alg».proof.Proof.Gen.ReferenceIdeal
import proofs.«167120_j72567767433410_2_alg».proof.Proof.Gen.Pre_finite_inputs
import proofs.«167120_j72567767433410_2_alg».proof.Proof.Gen.ReferenceIdeal.Run
import proofs.«167120_j72567767433410_2_alg».proof.Proof.Gen.ReferenceIdeal.Read
import proofs.«167120_j72567767433410_2_alg».proof.Proof.KernelBlend
import proofs.«167120_j72567767433410_2_alg».proof.Proof.ReferenceBlend
import Idealize.ShloMosaic.Adequacy
import Idealize.ShloMosaic.Init

noncomputable section

namespace Cert.Proof

open Idealize.ShloMosaic Idealize.ShloMosaic.TcCoe Idealize.SL.Sem

/-- The word-level kernel terminates without a fault and leaves its two arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- On the extended reals, from memories that agree on the image and the mask, both programs end with their result
    array at `blend` of the image and the mask: the kernel block by block, the reference operation by operation. -/
theorem algebraic : Cert.algebraic_KernelIdeal_ReferenceIdeal := by
  intro m ρ m' ρ' _ hagree
  refine ⟨fun c => Cert.Blend.blend (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerBlend.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefBlend.val_eq_blend, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
